-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S16384x4096 : Shape := ⟨2, ![16384, 4096]⟩
abbrev S_ : Shape := ⟨0, ![]⟩
abbrev S1x4096 : Shape := ⟨2, ![1, 4096]⟩
abbrev S2048x128 : Shape := ⟨2, ![2048, 128]⟩
abbrev S128x2048 : Shape := ⟨2, ![128, 2048]⟩
abbrev S1x2048 : Shape := ⟨2, ![1, 2048]⟩
abbrev S2048x2048 : Shape := ⟨2, ![2048, 2048]⟩
abbrev S2048x512 : Shape := ⟨2, ![2048, 512]⟩
abbrev S128x512 : Shape := ⟨2, ![128, 512]⟩

abbrev nBuf : Space → Nat
  | .hbm => 17
  | .vmem => 10
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096x4096, .f32⟩
  | .hbm, ⟨12, _⟩ => ⟨S4096x4096, .bf16⟩
  | .hbm, ⟨13, _⟩ => ⟨S1x4096, .f32⟩
  | .hbm, ⟨14, _⟩ => ⟨S1x4096, .f32⟩
  | .hbm, ⟨15, _⟩ => ⟨S16384x4096, .f32⟩
  | .hbm, ⟨16, _⟩ => ⟨S8x2048x4096, .f32⟩
  | .local _ .vmem, ⟨0, _⟩ => ⟨S2048x128, .f32⟩
  | .local _ .vmem, ⟨1, _⟩ => ⟨S2048x128, .f32⟩
  | .local _ .vmem, ⟨2, _⟩ => ⟨S128x2048, .bf16⟩
  | .local _ .vmem, ⟨3, _⟩ => ⟨S128x2048, .bf16⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x2048, .f32⟩
  | .local _ .vmem, ⟨9, _⟩ => ⟨S2048x2048, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 32], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S8x2048x4096_S16384x4096 : S8x2048x4096.ShapeCasts S16384x4096
  reducesTo_S4096x4096_S4096_d1 : S4096x4096.ReducesTo [1] S4096
  h_S_ : 0 < S_.numel
  bcast_S_S4096 : S_.BroadcastsInDim S4096 (![] : Fin 0 → Fin S4096.rank)
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x512_0_0 : ∀ a, (![0, 0] : Fin 2 → Nat) a + S2048x512.size a ≤ S2048x2048.size a
  h_S2048x512 : 0 < S2048x512.numel
  shapeCasts_S2048x512_S2048x512 : S2048x512.ShapeCasts S2048x512
  inb_S128x2048_S128x512_0_0 : ∀ a, (![0, 0] : Fin 2 → Nat) a + S128x512.size a ≤ S128x2048.size a
  h_S128x512 : 0 < S128x512.numel
  shapeCasts_S128x512_S128x512 : S128x512.ShapeCasts S128x512
  inb_S2048x2048_S2048x512_0_512 : ∀ a, (![0, 512] : Fin 2 → Nat) a + S2048x512.size a ≤ S2048x2048.size a
  inb_S128x2048_S128x512_0_512 : ∀ a, (![0, 512] : Fin 2 → Nat) a + S128x512.size a ≤ S128x2048.size a
  inb_S2048x2048_S2048x512_0_1024 : ∀ a, (![0, 1024] : Fin 2 → Nat) a + S2048x512.size a ≤ S2048x2048.size a
  inb_S128x2048_S128x512_0_1024 : ∀ a, (![0, 1024] : Fin 2 → Nat) a + S128x512.size a ≤ S128x2048.size a
  inb_S2048x2048_S2048x512_0_1536 : ∀ a, (![0, 1536] : Fin 2 → Nat) a + S2048x512.size a ≤ S2048x2048.size a
  inb_S128x2048_S128x512_0_1536 : ∀ a, (![0, 1536] : Fin 2 → Nat) a + S128x512.size a ≤ S128x2048.size a
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  shapeCasts_S16384x4096_S8x2048x4096 : S16384x4096.ShapeCasts S8x2048x4096
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x4096.size a
  hwx0_0 : ∀ i : grid0.Coords, EltTy.bits .f32 = 32 ∨ (Rect.block (s := S16384x4096) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x4096.size a
  hwx0_1 : ∀ i : grid0.Coords, EltTy.bits .bf16 = 32 ∨ (Rect.block (s := S4096x4096) S128x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x4096.size a
  hwx0_3 : ∀ i : grid0.Coords, EltTy.bits .f32 = 32 ∨ (Rect.block (s := S1x4096) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S16384x4096.size a
  hwx0_4 : ∀ i : grid0.Coords, EltTy.bits .f32 = 32 ∨ (Rect.block (s := S16384x4096) S2048x2048.size (cc0_transform_4 i) (hinb0_4 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2048x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x4096, .f32⟩
  | .hbm, ⟨12, _⟩ => ⟨S4096x4096, .f32⟩
  | .hbm, ⟨13, _⟩ => ⟨S8x2048x4096, .f32⟩
  | .hbm, ⟨14, _⟩ => ⟨S1x1x4096, .f32⟩
  | .hbm, ⟨15, _⟩ => ⟨S8x2048x4096, .f32⟩
  | .hbm, ⟨16, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Spec.lean ====
/-
  The result both programs compute, as one function of the three argument arrays, entry by entry on the
  extended reals. With s (n, k) = sign (w (n, k)) and the row scale c n = (0 + Σ k |w (n, k)|) / 4096 (the mean of
  the absolute values of row n, the two literals kept as the words both programs print),

    the kernel's grouping      outK (p, r, n) = (Σ k x (p, r, k) · s (n, k)) · c n + b n
    the reference's grouping   outR (p, r, n) = (Σ k x (p, r, k) · (c n · s (n, k))) + b n.

  The two differ by moving the factor c n across a finite sum, which is valid on the extended reals once every
  entry of x and of w is a real number (Law.lean).
-/
import Idealize.ShloMosaic.PureOps.Ideal
import Idealize.ShloMosaic.PureOps.Ideal.Laws
import Idealize.ShloMosaic.Lib.ValueIdx

noncomputable section

open scoped BigOperators

namespace Cert.BinaryLinear

open Idealize.ShloMosaic Idealize.ShloMosaic.ValueIdx

/-- The activations' shape [8, 2048, 4096], the weights' [4096, 4096] and the bias's [4096]. -/
abbrev SX : Shape := ⟨3, ![8, 2048, 4096]⟩
abbrev SW : Shape := ⟨2, ![4096, 4096]⟩
abbrev SB : Shape := ⟨1, ![4096]⟩

/-- The sign of weight (n, k): -1, 0 or 1 on a real. -/
def sgn (w : SW.Idx → EReal) (n k : Fin 4096) : EReal := Ideal.sign (w (ix2 n k))

/-- Row n's scale: the mean of the absolute values of the row, as the sum from the zero word divided by the word of 4096. -/
def scale (w : SW.Idx → EReal) (n : Fin 4096) : EReal :=
  Ideal.div (Ideal.ofBits .f32 0x00000000#32 + ∑ k : Fin 4096, max (w (ix2 n k)) (-(w (ix2 n k))))
    (Ideal.ofBits .f32 0x45800000#32)

/-- The kernel's grouping: the signed sum first, the row scale applied once to it, then the bias. -/
def outK (x : SX.Idx → EReal) (w : SW.Idx → EReal) (b : SB.Idx → EReal) (p : Fin 8) (r : Fin 2048) (n : Fin 4096) : EReal :=
  (∑ k : Fin 4096, x (ix3 p r k) * sgn w n k) * scale w n + b (ix1 n)

/-- The reference's grouping: every sign scaled first, then the sum, then the bias. -/
def outR (x : SX.Idx → EReal) (w : SW.Idx → EReal) (b : SB.Idx → EReal) (p : Fin 8) (r : Fin 2048) (n : Fin 4096) : EReal :=
  (∑ k : Fin 4096, x (ix3 p r k) * (scale w n * sgn w n k)) + b (ix1 n)

/-- The two groupings as whole arrays. -/
def arrK (x : SX.Idx → EReal) (w : SW.Idx → EReal) (b : SB.Idx → EReal) : SX.Idx → EReal :=
  fun i => outK x w b (i 0) (i 1) (i 2)

def arrR (x : SX.Idx → EReal) (w : SW.Idx → EReal) (b : SB.Idx → EReal) : SX.Idx → EReal :=
  fun i => outR x w b (i 0) (i 1) (i 2)

end Cert.BinaryLinear

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.LibBatchStats.lean ====
/-
  Batch statistics on the extended reals, for values that are real numbers.

  A batch-normalisation layer needs the mean and the variance of a finite family of numbers. One program
  computes the variance as the mean of the squared deviations, another as the mean of the squares minus
  the square of the mean, a third accumulates the sums tile by tile over a padded, masked index range.
  On the extended reals none of these rearrangements is free: distributing a factor over a sum, or
  cancelling, fails at the infinities. All of them hold for REAL entries, and this module states them
  in the form the programs produce: sums of coerced reals in `EReal`, quotients by a nonzero real
  constant through `Ideal.div`.

  * `coe_sum`            the coercion ℝ → EReal commutes with finite sums;
  * `mul_sum_coe`        a real factor distributes over a sum of reals (false for a negative factor and
                          a sum that meets both infinities);
  * `sum_mul_coe`        the same with the factor on the right;
  * `div_coe_coe`        the quotient of a real by a nonzero real is the real quotient;
  * `mean_coe`           the mean of reals is the real mean;
  * `variance_eq`        mean of squared deviations = mean of squares − square of the mean, when the divisor
                          IS the number of terms;
  * `sum_tiles_masked`   a sum over `T` tiles of width `K`, the entries at positions `≥ N` replaced by `0`,
                          is the sum over the first `N` positions (`N ≤ T * K`): padding plus masking;
  * `sum_rows_cols`      a sum over a flattened `B × N` index (row-major) is the double sum.
-/
import Idealize.ShloMosaic.PureOps.Ideal
import Mathlib.Algebra.BigOperators.Fin
import Mathlib.Data.EReal.Basic
import Mathlib.Tactic

noncomputable section

namespace Cert.Lib.BatchStats

open Idealize.ShloMosaic

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real factor distributes over a sum of reals. -/
theorem mul_sum_coe {ι : Type*} (s : Finset ι) (x : ℝ) (f : ι → ℝ) :
    (x : EReal) * ∑ i ∈ s, (f i : EReal) = ∑ i ∈ s, (x : EReal) * (f i : EReal) := by
  rw [← coe_sum, ← EReal.coe_mul, Finset.mul_sum, coe_sum]
  simp only [EReal.coe_mul]

/-- The same, the factor on the right. -/
theorem sum_mul_coe {ι : Type*} (s : Finset ι) (x : ℝ) (f : ι → ℝ) :
    (∑ i ∈ s, (f i : EReal)) * (x : EReal) = ∑ i ∈ s, (f i : EReal) * (x : EReal) := by
  rw [← coe_sum, ← EReal.coe_mul, Finset.sum_mul, coe_sum]
  simp only [EReal.coe_mul]

/-- The quotient of a real by a nonzero real is the real quotient. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The mean of a family of reals is the real mean. -/
theorem mean_coe {ι : Type*} (s : Finset ι) (z : ι → ℝ) {n : ℝ} (hn : n ≠ 0) :
    Ideal.div (∑ i ∈ s, (z i : EReal)) (n : EReal) = (((∑ i ∈ s, z i) / n : ℝ) : EReal) := by
  rw [← coe_sum, div_coe_coe _ hn]

/-- The variance two ways. For reals `z i`, `i ∈ s`, and a divisor `n` that IS the number of terms:
    the mean of the squared deviations from the mean is the mean of the squares minus the square of the
    mean. (With another divisor the two differ by `(card/n − 1) · mean²`.) -/
theorem variance_eq {ι : Type*} (s : Finset ι) (z : ι → ℝ) {n : ℝ} (hn : n ≠ 0) (hcard : (s.card : ℝ) = n) :
    Ideal.div (∑ i ∈ s, ((z i : EReal) - Ideal.div (∑ j ∈ s, (z j : EReal)) (n : EReal))
        * ((z i : EReal) - Ideal.div (∑ j ∈ s, (z j : EReal)) (n : EReal))) (n : EReal)
      = Ideal.div (∑ i ∈ s, (z i : EReal) * (z i : EReal)) (n : EReal)
        - Ideal.div (∑ j ∈ s, (z j : EReal)) (n : EReal) * Ideal.div (∑ j ∈ s, (z j : EReal)) (n : EReal) := by
  rw [mean_coe s z hn]
  simp only [← EReal.coe_sub, ← EReal.coe_mul]
  rw [mean_coe s _ hn, mean_coe s _ hn, ← EReal.coe_sub]
  congr 1
  have h1 : ∑ i ∈ s, (z i - (∑ j ∈ s, z j) / n) * (z i - (∑ j ∈ s, z j) / n)
      = ∑ i ∈ s, z i * z i - 2 * ((∑ j ∈ s, z j) / n) * (∑ i ∈ s, z i) + (s.card : ℝ) * (((∑ j ∈ s, z j) / n) * ((∑ j ∈ s, z j) / n)) := by
    have : ∀ i, (z i - (∑ j ∈ s, z j) / n) * (z i - (∑ j ∈ s, z j) / n)
        = z i * z i - 2 * ((∑ j ∈ s, z j) / n) * z i + ((∑ j ∈ s, z j) / n) * ((∑ j ∈ s, z j) / n) := fun i => by ring
    simp only [this, Finset.sum_add_distrib, Finset.sum_sub_distrib, ← Finset.mul_sum, Finset.sum_const, nsmul_eq_mul]
    ring
  rw [h1, hcard]
  field_simp
  ring

/-- Padding and masking. A sum over `T` tiles of width `K`, each entry read at its global position
    `t * K + k` and replaced by `0` from position `N` on, is the sum over the first `N` positions. -/
theorem sum_tiles_masked {M : Type*} [AddCommMonoid M] (T K N : ℕ) (hN : N ≤ T * K) (f : ℕ → M) :
    ∑ t : Fin T, ∑ k : Fin K, (if t.val * K + k.val < N then f (t.val * K + k.val) else 0)
      = ∑ i : Fin N, f i.val := by
  have key : ∀ p : Fin T × Fin K, p.1.val * K + p.2.val = (finProdFinEquiv p).val := fun p => by
    rw [finProdFinEquiv_apply_val]; ring
  rw [← Finset.sum_product', Finset.univ_product_univ]
  calc ∑ p : Fin T × Fin K, (if p.1.val * K + p.2.val < N then f (p.1.val * K + p.2.val) else 0)
      = ∑ p : Fin T × Fin K, (fun j : Fin (T * K) => if j.val < N then f j.val else 0) (finProdFinEquiv p) :=
        Finset.sum_congr rfl fun p _ => by simp only [key]
    _ = ∑ j : Fin (T * K), (if j.val < N then f j.val else 0) :=
        Equiv.sum_comp finProdFinEquiv (fun j : Fin (T * K) => if j.val < N then f j.val else 0)
    _ = ∑ i : Fin N, f i.val := by
        rw [Fin.sum_univ_eq_sum_range (fun j => if j < N then f j else 0) (T * K),
          Fin.sum_univ_eq_sum_range (fun j => f j) N, Finset.sum_ite, Finset.sum_const_zero, add_zero]
        congr 1
        ext j
        simp only [Finset.mem_filter, Finset.mem_range]
        exact ⟨fun h => h.2, fun h => ⟨lt_of_lt_of_le h hN, h⟩⟩

/-- A sum over the row-major flattening of a `B × N` index is the double sum. -/
theorem sum_rows_cols {M : Type*} [AddCommMonoid M] (B N : ℕ) (g : ℕ → M) :
    ∑ i : Fin (B * N), g i.val = ∑ b : Fin B, ∑ n : Fin N, g (b.val * N + n.val) := by
  have key : ∀ p : Fin B × Fin N, p.1.val * N + p.2.val = (finProdFinEquiv p).val := fun p => by
    rw [finProdFinEquiv_apply_val]; ring
  rw [← Finset.sum_product', Finset.univ_product_univ]
  calc ∑ i : Fin (B * N), g i.val
      = ∑ p : Fin B × Fin N, (fun j : Fin (B * N) => g j.val) (finProdFinEquiv p) :=
        (Equiv.sum_comp finProdFinEquiv (fun j : Fin (B * N) => g j.val)).symm
    _ = ∑ p : Fin B × Fin N, g (p.1.val * N + p.2.val) := Finset.sum_congr rfl fun p _ => by simp only [key]

end Cert.Lib.BatchStats

end
-- ==== Proof.Law.lean ====
/-
  The law that joins the two groupings of the result.

  The kernel multiplies the signed sum by the row scale once; the reference scales every sign first and
  sums afterwards. Moving a factor across a finite sum is an identity of the real numbers; on the extended
  reals it fails at the infinities (a sum that meets both of them, times a factor, is not the sum of the
  products). So the identity is proved for arguments whose entries are all real: then the row scale
  (a quotient of a finite sum of reals by 4096), every sign (-1, 0 or 1) and every product are reals, both
  sides are coercions of real expressions, and the real identity (Σ a s) · c = Σ a · (c · s) closes it.
  The bias is added last on both sides and needs no hypothesis.
-/
import proofs.«168959_j35691178230429_2_alg».proof.Proof.Spec
import proofs.«168959_j35691178230429_2_alg».proof.Proof.LibRealValued
import proofs.«168959_j35691178230429_2_alg».proof.Proof.LibBatchStats
import Mathlib.Tactic

noncomputable section

open scoped BigOperators

namespace Cert.BinaryLinear

open Idealize.ShloMosaic Idealize.ShloMosaic.ValueIdx

/-- The divisor's word denotes the real number 4096. -/
theorem ofBits_4096 : Ideal.ofBits .f32 0x45800000#32 = ((4096 : ℝ) : EReal) := by
  simp [Ideal.ofBits, Ideal.ieee, -EReal.coe_mul]; norm_num

open Cert.Lib.RealValued in
/-- The row scale of a real-valued weight array is a real: a finite sum of reals divided by 4096. -/
theorem scale_isReal (w : SW.Idx → EReal) (hw : AllReal w) (n : Fin 4096) : IsReal (scale w n) := by
  unfold scale
  rw [ofBits_4096, Ideal.ofBits_zero_f32]
  exact (IsReal.zero.add (IsReal.sum _ _ fun k _ => (hw _).max (hw _).neg)).div_coe (by norm_num)

open Cert.Lib.RealValued in
/-- The sign of a real weight is a real (-1, 0 or 1). -/
theorem sgn_isReal (w : SW.Idx → EReal) (hw : AllReal w) (n k : Fin 4096) : IsReal (sgn w n k) := by
  unfold sgn
  obtain ⟨r, hr⟩ := hw (ix2 n k)
  rw [hr, Ideal.sign_coe]
  exact IsReal.coe _

open Cert.Lib.RealValued in
/-- The kernel's grouping equals the reference's at every entry, for real-valued activations and weights. -/
theorem outK_eq_outR (x : SX.Idx → EReal) (w : SW.Idx → EReal) (b : SB.Idx → EReal) (hx : AllReal x) (hw : AllReal w)
    (p : Fin 8) (r : Fin 2048) (n : Fin 4096) : outK x w b p r n = outR x w b p r n := by
  unfold outK outR
  refine congrArg (· + b (ix1 n)) ?_
  obtain ⟨c, hc⟩ := scale_isReal w hw n
  obtain ⟨s, hs⟩ := AllReal.exists_real (v := fun k : Fin 4096 => sgn w n k) (fun k => sgn_isReal w hw n k)
  obtain ⟨a, ha⟩ := AllReal.exists_real (v := fun k : Fin 4096 => x (ix3 p r k)) (fun k => hx _)
  have hs' : ∀ k, sgn w n k = (s k : EReal) := fun k => congrFun hs k
  have ha' : ∀ k, x (ix3 p r k) = (a k : EReal) := fun k => congrFun ha k
  rw [hc]
  simp only [hs', ha', ← EReal.coe_mul, ← Cert.Lib.BatchStats.coe_sum]
  refine congrArg (fun t : ℝ => (t : EReal)) ?_
  rw [Finset.sum_mul]
  exact Finset.sum_congr rfl fun k _ => by ring

open Cert.Lib.RealValued in
/-- The two groupings agree as whole arrays. -/
theorem arrK_eq_arrR (x : SX.Idx → EReal) (w : SW.Idx → EReal) (b : SB.Idx → EReal) (hx : AllReal x) (hw : AllReal w) :
    arrK x w b = arrR x w b :=
  funext fun i => outK_eq_outR x w b hx hw (i 0) (i 1) (i 2)

end Cert.BinaryLinear

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«168959_j35691178230429_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.Finite.lean ====
/-
  The precondition read back: all three arguments are real-valued.

  The precondition tests each argument separately: the absolute value of every entry is compared with +∞,
  the one-bit answers are reduced by "and" over all axes to a single bit, and the three bits are joined by
  two further "and"s. A conjunction of bits is 1 exactly when both are, so the result 1 splits into the
  three reduced tests being 1, and each of those says that every entry of its argument is a real number
  (an entry ±∞, or the junk value the extended reals use for a NaN pattern, has absolute value +∞, not below it).
-/
import proofs.«168959_j35691178230429_2_alg».proof.Pre_finite_inputs
import proofs.«168959_j35691178230429_2_alg».proof.Proof.LibFiniteTest
import Idealize.ShloMosaic.Lib.ReduceAll
import Idealize.ShloMosaic.Lib.Affine
import Idealize.ShloMosaic.Lib.ValueIdx

noncomputable section

namespace Cert.BinaryLinear

open Idealize.ShloMosaic Idealize.ShloMosaic.ValueIdx

open Cert.Lib.RealValued in
/-- The precondition's result 1 makes every entry of each of the three arguments a real. -/
theorem allReal_of_pre [Cert.Pre_finite_inputs.Facts]
    (x0 : FVec Ideal Cert.Pre_finite_inputs.S8x2048x4096 .f32)
    (x1 : FVec Ideal Cert.Pre_finite_inputs.S4096x4096 .f32)
    (x2 : FVec Ideal Cert.Pre_finite_inputs.S4096 .f32)
    (h : Cert.Pre_finite_inputs.fn (F := Ideal) x0 x1 x2 = fun _ => 1#1) :
    AllReal x0 ∧ AllReal x1 ∧ AllReal x2 := by
  -- the scalar shape has one index
  haveI : Subsingleton Cert.Pre_finite_inputs.S_.Idx := ⟨fun a b => funext fun d => d.elim0⟩
  have h0 := congrFun h ix0
  dsimp only [Cert.Pre_finite_inputs.fn] at h0
  -- the outer "and" joins (test of x0 ∧ test of x1) with the test of x2
  obtain ⟨h01, e2⟩ := IntOp.andi_eq_one.1 h0
  obtain ⟨e0, e1⟩ := IntOp.andi_eq_one.1 h01
  exact ⟨Cert.Lib.FiniteTest.allReal_of_all x0 _ _ _ _ _ ix0 e0,
    Cert.Lib.FiniteTest.allReal_of_all x1 _ _ _ _ _ ix0 e1,
    Cert.Lib.FiniteTest.allReal_of_all x2 _ _ _ _ _ ix0 e2⟩

end Cert.BinaryLinear

end
-- ==== Proof.RefSpec.lean ====
/-
  The reference's last stage is the reference's grouping of the result.

  Read at an index (p, r, n), the reference's result is the contraction over k of the activations at (p, r, k)
  with the scaled signs at (n, k), plus the bias at n. The scaled sign at (n, k) is the row scale of row n (the
  sum of the absolute values of the row from the zero word, divided by the word of 4096, then broadcast along
  the row) times the sign of the weight at (n, k). The broadcasts only re-index: composing their index maps
  as they occur gives the coordinates (n, k') of the row sum and n of the bias. The two float literals stay
  the words both programs print.
-/
import proofs.«168959_j35691178230429_2_alg».proof.Proof.Gen.ReferenceIdeal.Read
import proofs.«168959_j35691178230429_2_alg».proof.Proof.Spec

noncomputable section

open scoped BigOperators

namespace Cert.BinaryLinear.RefSpec

open Idealize.ShloMosaic Idealize.ShloMosaic.ValueIdx Cert.ReferenceIdeal Cert.ReferenceIdeal.Read

/-- The reference's result, as a function of the three arguments, is the reference's grouping. -/
theorem ref_eq [Cert.ReferenceIdeal.Facts]
    (x0 : (⟨Cert.ReferenceIdeal.S8x2048x4096, .f32⟩ : BufTy).Contents (Elt Ideal))
    (x1 : (⟨Cert.ReferenceIdeal.S4096x4096, .f32⟩ : BufTy).Contents (Elt Ideal))
    (x2 : (⟨Cert.ReferenceIdeal.S4096, .f32⟩ : BufTy).Contents (Elt Ideal)) :
    Cert.ReferenceIdeal.Read.val_main_v11 (F := Ideal) x0 x1 x2 = Cert.BinaryLinear.arrR x0 x1 x2 := by
  funext i
  -- the contraction reads the activations at (p, r, k) and the scaled signs at (n, k)
  have el : ∀ k : Fin 4096, lidx_main_v8 i k = ix3 (i 0) (i 1) k := fun k =>
    funext fun a => Fin.ext (by match a with | ⟨0, _⟩ => rfl | ⟨1, _⟩ => rfl | ⟨2, _⟩ => rfl)
  have er : ∀ k : Fin 4096, ridx_main_v8 i k = ix2 (i 2) k := fun k =>
    funext fun a => Fin.ext (by match a with | ⟨0, _⟩ => rfl | ⟨1, _⟩ => rfl)
  -- the row scale broadcast along row j 0 sums the absolute values at (j 0, k'), whatever the column j 1
  have e2 : ∀ (j : S4096x4096.Idx) (k' : Fin 4096), idx_main_v2 (idx_main_v3 (idx_main_v6 j)) k' = ix2 (j 0) k' := fun j k' =>
    funext fun a => Fin.ext (by match a with | ⟨0, _⟩ => rfl | ⟨1, _⟩ => rfl)
  -- the bias broadcast over the two leading axes is read at n
  have eb : idx_main_v9 (idx_main_v10 i) = ix1 (i 2) :=
    funext fun a => Fin.ext (by match a with | ⟨0, _⟩ => rfl)
  rw [val_main_v11_apply, val_main_v8_apply, val_main_v10_apply, val_main_v9_apply]
  simp only [val_main_v7_apply, val_main_v6_apply, val_main_v5_apply, val_main_v3_apply, val_main_v2_apply,
    val_main_v4_apply, val_main_cst_0_apply, val_main_cst_apply, val_main_v1_apply, val_main_v0_apply]
  simp only [e2]
  simp only [el, er, eb, Ideal.addf_def, Ideal.mulf_def, Ideal.hostDivf_def, Ideal.hostUnary_sign_def,
    Ideal.hostAbsf_def, Ideal.absf_def, Ideal.ofBits_def]
  rfl

end Cert.BinaryLinear.RefSpec

end
-- ==== Proof.Payloads.lean ====
/- The kernel body's pure values read at an index, at the ideal instance (a float is an extended real):
   the zero block, the format change of the x block (the identity), the four column quarters' accumulate steps
   (the accumulator plus the contraction over the 128 columns of the x block), and the last point's scale and bias
   (the block times a broadcast row plus a broadcast row). Each is stated over variables of the literal vector types
   with explicit coordinates. -/
import proofs.«168959_j35691178230429_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.BinaryLinear.Payloads

open Idealize.ShloMosaic Idealize.ShloMosaic.ValueIdx Cert.KernelIdeal Cert.KernelIdeal.Gen

variable [Cert.KernelIdeal.Facts]

/-! ## The contraction's operand indices

The product contracts the left operand's axis 1 with the right operand's axis 0; the left operand's axis 0 and the
right operand's axis 1 are the output's two axes. -/

private theorem lhs_0 (j : S2048x512.Idx) (c : dot_S2048x128_S128x512_S2048x512_1_0_0_1_n_n.contr.Idx) :
    (dot_S2048x128_S128x512_S2048x512_1_0_0_1_n_n.lhsIdx j c 0).val = (j 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
private theorem lhs_1 (j : S2048x512.Idx) (c : dot_S2048x128_S128x512_S2048x512_1_0_0_1_n_n.contr.Idx) :
    (dot_S2048x128_S128x512_S2048x512_1_0_0_1_n_n.lhsIdx j c 1).val = (c ⟨0, by decide⟩).val :=
  dot_S2048x128_S128x512_S2048x512_1_0_0_1_n_n.lhsIdx_val_of_single rfl j c
private theorem rhs_0 (j : S2048x512.Idx) (c : dot_S2048x128_S128x512_S2048x512_1_0_0_1_n_n.contr.Idx) :
    (dot_S2048x128_S128x512_S2048x512_1_0_0_1_n_n.rhsIdx j c 0).val = (c ⟨0, by decide⟩).val :=
  dot_S2048x128_S128x512_S2048x512_1_0_0_1_n_n.rhsIdx_val_of_single rfl j c
private theorem rhs_1 (j : S2048x512.Idx) (c : dot_S2048x128_S128x512_S2048x512_1_0_0_1_n_n.contr.Idx) :
    (dot_S2048x128_S128x512_S2048x512_1_0_0_1_n_n.rhsIdx j c 1).val = (j 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The [2048,128] × [128,512] product into the zero block, read at (p, q): the sum over the 128 contracted
    positions of the left operand's row p times the right operand's column q. -/
private theorem mm_apply (l : FVec Ideal S2048x128 .bf16) (r : FVec Ideal S128x512 .bf16) (p : Fin 2048) (q : Fin 512) :
    matmul (F := Ideal) dot_S2048x128_S128x512_S2048x512_1_0_0_1_n_n none l r (constant S2048x512 .f32 0x00000000#32) (ix2 p q)
      = ∑ kk : Fin 128, l (ix2 p kk) * r (ix2 kk q) := by
  simp only [matmul]
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 p q) ((contrEquiv1 dot_S2048x128_S128x512_S2048x512_1_0_0_1_n_n 128 rfl rfl).symm k) = ix2 p k := funext fun a => Fin.ext (by
    match a with
    | ⟨0, _⟩ => exact lhs_0 _ _
    | ⟨1, _⟩ => exact (lhs_1 _ _).trans hk)
  have er : dot_S2048x128_S128x512_S2048x512_1_0_0_1_n_n.rhsIdx (ix2 p q) ((contrEquiv1 dot_S2048x128_S128x512_S2048x512_1_0_0_1_n_n 128 rfl rfl).symm k) = ix2 k q := funext fun a => Fin.ext (by
    match a with
    | ⟨0, _⟩ => exact (rhs_0 _ _).trans hk
    | ⟨1, _⟩ => exact rhs_1 _ _)
  rw [el, er]

/-! ## The payloads -/

/-- The first point's block is zero everywhere. -/
theorem pay3_apply (y : S2048x2048.Idx) : k0_pay3 (F := Ideal) y = 0 := by
  show Ideal.ofBits .f32 0x00000000#32 = 0
  exact Ideal.ofBits_zero_f32

/-- The change of format of the x block is the identity on extended reals. -/
theorem pay4_apply (v3 : Vec Ideal S2048x128 .f32) (y : S2048x128.Idx) : k0_pay4 (F := Ideal) v3 y = v3 y := by
  unfold k0_pay4
  rw [shapeCast_self]
  rfl

/-- The format-changed x block is the x block. -/
private theorem pay4_eq (v3 : Vec Ideal S2048x128 .f32) : k0_pay4 (F := Ideal) v3 = v3 :=
  funext fun y => pay4_apply v3 y

/-- Column quarter 0: the accumulator quarter plus the x block's row times the weight quarter's column. -/
theorem pay5_apply (v3 : Vec Ideal S2048x128 .f32) (v6 : Vec Ideal S2048x512 .f32) (v8 : Vec Ideal S128x512 .bf16) (p : Fin 2048) (q : Fin 512) :
    k0_pay5 (F := Ideal) v3 v6 v8 (ix2 p q) = v6 (ix2 p q) + ∑ kk : Fin 128, v3 (ix2 p kk) * v8 (ix2 kk q) := by
  unfold k0_pay5
  rw [shapeCast_self, shapeCast_self]
  show v6 (ix2 p q) + _ = _
  refine congrArg (v6 (ix2 p q) + ·) ?_
  refine (mm_apply (k0_pay4 (F := Ideal) v3) v8 p q).trans ?_
  rw [pay4_eq]

/-- Column quarter 1. -/
theorem pay6_apply (v3 : Vec Ideal S2048x128 .f32) (v13 : Vec Ideal S2048x512 .f32) (v15 : Vec Ideal S128x512 .bf16) (p : Fin 2048) (q : Fin 512) :
    k0_pay6 (F := Ideal) v3 v13 v15 (ix2 p q) = v13 (ix2 p q) + ∑ kk : Fin 128, v3 (ix2 p kk) * v15 (ix2 kk q) := by
  unfold k0_pay6
  rw [shapeCast_self, shapeCast_self]
  show v13 (ix2 p q) + _ = _
  refine congrArg (v13 (ix2 p q) + ·) ?_
  refine (mm_apply (k0_pay4 (F := Ideal) v3) v15 p q).trans ?_
  rw [pay4_eq]

/-- Column quarter 2. -/
theorem pay7_apply (v3 : Vec Ideal S2048x128 .f32) (v20 : Vec Ideal S2048x512 .f32) (v22 : Vec Ideal S128x512 .bf16) (p : Fin 2048) (q : Fin 512) :
    k0_pay7 (F := Ideal) v3 v20 v22 (ix2 p q) = v20 (ix2 p q) + ∑ kk : Fin 128, v3 (ix2 p kk) * v22 (ix2 kk q) := by
  unfold k0_pay7
  rw [shapeCast_self, shapeCast_self]
  show v20 (ix2 p q) + _ = _
  refine congrArg (v20 (ix2 p q) + ·) ?_
  refine (mm_apply (k0_pay4 (F := Ideal) v3) v22 p q).trans ?_
  rw [pay4_eq]

/-- Column quarter 3, over the format-changed block itself. -/
theorem pay1_apply (v5 : FVec Ideal S2048x128 .bf16) (v27 : Vec Ideal S2048x512 .f32) (v29 : Vec Ideal S128x512 .bf16) (p : Fin 2048) (q : Fin 512) :
    k0_pay1 (F := Ideal) v5 v27 v29 (ix2 p q) = v27 (ix2 p q) + ∑ kk : Fin 128, v5 (ix2 p kk) * v29 (ix2 kk q) := by
  unfold k0_pay1
  rw [shapeCast_self, shapeCast_self]
  show v27 (ix2 p q) + _ = _
  exact congrArg (v27 (ix2 p q) + ·) (mm_apply v5 v29 p q)

/-- The last point: the block times the scale row plus the bias row, each row read at the column. -/
theorem pay2_apply (v37 : Vec Ideal S2048x2048 .f32) (v39 v43 : Vec Ideal S1x2048 .f32) (p q : Fin 2048) :
    k0_pay2 (F := Ideal) v37 v39 v43 (ix2 p q) = v37 (ix2 p q) * v39 (ix2 0 q) + v43 (ix2 0 q) := by
  unfold k0_pay2
  rw [shapeCast_self, shapeCast_self, shapeCast_self]
  show v37 (ix2 p q) * broadcastTo S2048x2048 v39 broadcasts_S1x2048_S2048x2048 (ix2 p q)
      + broadcastTo S2048x2048 v43 broadcasts_S1x2048_S2048x2048 (ix2 p q) = _
  rw [broadcastTo_1b_ab_apply, broadcastTo_1b_ab_apply]

end Cert.BinaryLinear.Payloads

end
-- ==== Proof.Cases.lean ====
/-
  What one grid point leaves in the resident output block, entry by entry on the extended reals.
  A block entry y = (row, column) receives at every point the addend  Σ kk x0 (row, kk) · x1 (kk, column)  of the point's
  activation block x0 [2048,128] and weight block x1 [128,2048]; the body writes it in four column quarters of 512, each
  the quarter's previous contents plus the quarter's product. At the first point of a run the block is zeroed before, so
  the point leaves 0 + addend; at a middle point it leaves acc + addend over what the point before left; at the last
  point it then multiplies the whole block by the scale row x2 and adds the bias row x3.
-/
import proofs.«168959_j35691178230429_2_alg».proof.Proof.Gen.KernelIdeal.Frame
import proofs.«168959_j35691178230429_2_alg».proof.Proof.Payloads
import Idealize.ShloMosaic.Lib.Pipeline.Value
import Idealize.ShloMosaic.Lib.Pipeline.CanonAppend
import Idealize.ShloMosaic.Lib.Tactic
import Idealize.ShloMosaic.Lib.ValueIdx
import Idealize.ShloMosaic.PureOps.Ideal.Laws

set_option maxRecDepth 16384

noncomputable section

open scoped BigOperators
open Idealize.ShloMosaic Idealize.ShloMosaic.TcCoe Idealize.ShloMosaic.ValueIdx Idealize.ShloMosaic.Tactic Idealize.SL.Sem

namespace Cert.BinaryLinear.Cases

open Cert.KernelIdeal Cert.KernelIdeal.Gen Cert.BinaryLinear.Payloads

theorem hz2 : (![0, 0] : Fin 2 → Nat) = fun _ => 0 := funext fun a => by fin_cases a <;> rfl

/-- One grid point's addend at block entry y = (row, column): the row of the activation block against the column of the
    weight block. -/
def addend (x0 : Vec Ideal S2048x128 .f32) (x1 : Vec Ideal S128x2048 .bf16) (y : S2048x2048.Idx) : EReal :=
  ∑ kk : Fin 128, x0 (ix2 (y 0) kk) * x1 (ix2 kk (y 1))

/-- A column quarter at offset o: a payload that is "quarter of the accumulator plus the product with the weight quarter",
    read at a local index x of the quarter, is the accumulator quarter there plus the addend at the block entry x names. -/
theorem quarter_piece (o : Nat)
    (inb : ∀ a, (![0, o] : Fin 2 → Nat) a + (![2048, 512] : Fin 2 → Nat) a ≤ S2048x2048.size a)
    (inb' : ∀ a, (![0, o] : Fin 2 → Nat) a + (![128, 512] : Fin 2 → Nat) a ≤ S128x2048.size a)
    (pay : Vec Ideal S2048x128 .f32 → Vec Ideal S2048x512 .f32 → Vec Ideal S128x512 .bf16 → FVec Ideal S2048x512 .f32)
    (hpay : ∀ (v3 : Vec Ideal S2048x128 .f32) (v6 : Vec Ideal S2048x512 .f32) (v8 : Vec Ideal S128x512 .bf16) (p : Fin 2048) (q : Fin 512),
      pay v3 v6 v8 (ix2 p q) = v6 (ix2 p q) + ∑ kk : Fin 128, v3 (ix2 p kk) * v8 (ix2 kk q))
    (x0 : Vec Ideal S2048x128 .f32) (x1 : Vec Ideal S128x2048 .bf16) (v6 : Vec Ideal S2048x512 .f32)
    (x : S2048x512.Idx) :
    pay x0 v6 (View.ld x1 (Rect.unit (s := S128x2048) ![0, o] ![128, 512] inb')) x
      = v6 x + addend x0 x1 ((Rect.unit (s := S2048x2048) ![0, o] ![2048, 512] inb).emb x) := by
  obtain ⟨a, b, rfl⟩ : ∃ (a : Fin 2048) (b : Fin 512), x = ix2 a b := ⟨x 0, x 1, eq_ix2 x⟩
  rw [hpay]
  refine congrArg (v6 (ix2 a b) + ·) (Finset.sum_congr rfl fun kk _ => ?_)
  refine congrArg₂ (· * ·) (congrArg x0 ?_) (congrArg x1 ?_)
  · funext d
    match d with
    | ⟨0, _⟩ => exact Fin.ext (by show a.val = 0 + 1 * a.val; omega)
    | ⟨1, _⟩ => rfl
  · funext d
    match d with
    | ⟨0, _⟩ => exact Fin.ext (by show 0 + 1 * kk.val = kk.val; omega)
    | ⟨1, _⟩ => exact Fin.ext (by show o + 1 * b.val = o + 1 * b.val; rfl)

/-- The four quarter payloads in the form quarter_piece asks. -/
theorem hpay5 (v3 : Vec Ideal S2048x128 .f32) (v6 : Vec Ideal S2048x512 .f32) (v8 : Vec Ideal S128x512 .bf16) (p : Fin 2048) (q : Fin 512) :
    k0_pay5 (F := Ideal) v3 v6 v8 (ix2 p q) = v6 (ix2 p q) + ∑ kk : Fin 128, v3 (ix2 p kk) * v8 (ix2 kk q) := pay5_apply v3 v6 v8 p q
theorem hpay6 (v3 : Vec Ideal S2048x128 .f32) (v6 : Vec Ideal S2048x512 .f32) (v8 : Vec Ideal S128x512 .bf16) (p : Fin 2048) (q : Fin 512) :
    k0_pay6 (F := Ideal) v3 v6 v8 (ix2 p q) = v6 (ix2 p q) + ∑ kk : Fin 128, v3 (ix2 p kk) * v8 (ix2 kk q) := pay6_apply v3 v6 v8 p q
theorem hpay7 (v3 : Vec Ideal S2048x128 .f32) (v6 : Vec Ideal S2048x512 .f32) (v8 : Vec Ideal S128x512 .bf16) (p : Fin 2048) (q : Fin 512) :
    k0_pay7 (F := Ideal) v3 v6 v8 (ix2 p q) = v6 (ix2 p q) + ∑ kk : Fin 128, v3 (ix2 p kk) * v8 (ix2 kk q) := pay7_apply v3 v6 v8 p q
theorem hpay1 (v3 : Vec Ideal S2048x128 .f32) (v6 : Vec Ideal S2048x512 .f32) (v8 : Vec Ideal S128x512 .bf16) (p : Fin 2048) (q : Fin 512) :
    k0_pay1 (F := Ideal) (k0_pay4 (F := Ideal) v3) v6 v8 (ix2 p q) = v6 (ix2 p q) + ∑ kk : Fin 128, v3 (ix2 p kk) * v8 (ix2 kk q) := by
  rw [pay1_apply]
  exact congrArg (v6 (ix2 p q) + ·) (Finset.sum_congr rfl fun kk _ => by rw [pay4_apply])

/-- A middle point: over the contents acc the point before left, every entry gains the point's addend. -/
theorem out_B (c : Dev nD) (i : grid0.Coords) (arg3 : Memref sig .tc .vmem S2048x128 .f32) (harg3 : arg3.IsWhole) (arg4 : Memref sig .tc .vmem S128x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .f32) (harg7 : arg7.IsWhole) (hc0 : ¬cond0_0 i) (hc1 : ¬cond0_1 i) (x0 : Vec Ideal S2048x128 .f32) (x1 : Vec Ideal S128x2048 .bf16) (x2 : Vec Ideal S1x2048 .f32) (x3 : Vec Ideal S1x2048 .f32) (xo4 : Vec Ideal S2048x2048 .f32) :
    out0_B_4 (F := Ideal) c i arg3 harg3 arg4 harg4 arg5 harg5 arg6 harg6 arg7 harg7 hc0 hc1 x0 x1 x2 x3 xo4 = fun y => xo4 y + addend x0 x1 y := by
  unfold out0_B_4
  rw [View.read_writes_eq_canon _ _ _ (cover0_B_4 c i arg3 harg3 arg4 harg4 arg5 harg5 arg6 harg6 arg7 harg7 hc0 hc1 x0 x1 x2 x3 xo4)]
  unfold kernelRun0_B
  dsimp only
  sl_unfold_words
  simp only [View.readAt_eq_ld, harg3.read_unread, harg4.read_unread, harg7.read_unread, View.ld_unit_zero (S := S2048x128) hz2]
  funext y
  refine View.canon_apply_of_pieces (fun y => xo4 y + addend x0 x1 y) _ ?_ y (View.cover_of_tiledL (s := S2048x2048) _ S2048x512.size (by sl_kernel_rfl) y)
  intro p hp x
  simp only [List.mem_cons, List.mem_nil_iff, or_false] at hp
  rcases hp with rfl | rfl | rfl | rfl
  · exact quarter_piece 1536 inb_S2048x2048_S2048x512_0_1536 inb_S128x2048_S128x512_0_1536 (fun v3 v6 v8 => k0_pay1 (k0_pay4 v3) v6 v8) hpay1 x0 x1 _ x
  · exact quarter_piece 1024 inb_S2048x2048_S2048x512_0_1024 inb_S128x2048_S128x512_0_1024 k0_pay7 hpay7 x0 x1 _ x
  · exact quarter_piece 512 inb_S2048x2048_S2048x512_0_512 inb_S128x2048_S128x512_0_512 k0_pay6 hpay6 x0 x1 _ x
  · exact quarter_piece 0 inb_S2048x2048_S2048x512_0_0 inb_S128x2048_S128x512_0_0 k0_pay5 hpay5 x0 x1 _ x

/-- The last point of a run: the entries gain the addend as at a middle point, and then the whole block is multiplied by
    the scale row and the bias row is added, column by column. -/
theorem out_C (c : Dev nD) (i : grid0.Coords) (arg3 : Memref sig .tc .vmem S2048x128 .f32) (harg3 : arg3.IsWhole) (arg4 : Memref sig .tc .vmem S128x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .f32) (harg7 : arg7.IsWhole) (hc0 : ¬cond0_0 i) (hc1 : cond0_1 i) (x0 : Vec Ideal S2048x128 .f32) (x1 : Vec Ideal S128x2048 .bf16) (x2 : Vec Ideal S1x2048 .f32) (x3 : Vec Ideal S1x2048 .f32) (xo4 : Vec Ideal S2048x2048 .f32) :
    out0_C_4 (F := Ideal) c i arg3 harg3 arg4 harg4 arg5 harg5 arg6 harg6 arg7 harg7 hc0 hc1 x0 x1 x2 x3 xo4 = fun y => (xo4 y + addend x0 x1 y) * x2 (ix2 0 (y 1)) + x3 (ix2 0 (y 1)) := by
  unfold out0_C_4
  rw [View.read_writes_eq_canon _ _ _ (cover0_C_4 c i arg3 harg3 arg4 harg4 arg5 harg5 arg6 harg6 arg7 harg7 hc0 hc1 x0 x1 x2 x3 xo4)]
  unfold kernelRun0_C
  dsimp only
  sl_unfold_words
  simp only [View.readAt_eq_ld, harg3.read_unread, harg4.read_unread, harg5.read_unread, harg6.read_unread, harg7.read_unread,
    View.ld_unit_zero (S := S2048x128) hz2, View.ld_unit_zero (S := S1x2048) hz2]
  rw [View.canon_cons_unit_zero (S := S2048x2048) hz2, View.readCov_eq_canon']
  funext y
  obtain ⟨p, q, rfl⟩ : ∃ (p q : Fin 2048), y = ix2 p q := ⟨y 0, y 1, eq_ix2 y⟩
  rw [pay2_apply]
  have hy : (Rect.unit (s := S2048x2048) ![0, 0] ![2048, 2048] inb_S2048x2048_S2048x2048_0_0).toLoadRect.idx (ix2 p q) = ix2 p q :=
    funext fun d => Fin.ext (by
      match d with
      | ⟨0, _⟩ => show 0 + 1 * p.val = p.val; omega
      | ⟨1, _⟩ => show 0 + 1 * q.val = q.val; omega)
  refine congrArg₂ (· + ·) (congrArg (· * x2 (ix2 0 q)) ?_) rfl
  show View.canon _ ((Rect.unit (s := S2048x2048) ![0, 0] ![2048, 2048] inb_S2048x2048_S2048x2048_0_0).toLoadRect.idx (ix2 p q)) = _
  rw [hy]
  refine View.canon_apply_of_pieces (fun y => xo4 y + addend x0 x1 y) _ ?_ (ix2 p q) (View.cover_of_tiledL (s := S2048x2048) _ S2048x512.size (by sl_kernel_rfl) (ix2 p q))
  intro p hp x
  simp only [List.mem_cons, List.mem_nil_iff, or_false] at hp
  rcases hp with rfl | rfl | rfl | rfl
  · exact quarter_piece 1536 inb_S2048x2048_S2048x512_0_1536 inb_S128x2048_S128x512_0_1536 (fun v3 v6 v8 => k0_pay1 (k0_pay4 v3) v6 v8) hpay1 x0 x1 _ x
  · exact quarter_piece 1024 inb_S2048x2048_S2048x512_0_1024 inb_S128x2048_S128x512_0_1024 k0_pay7 hpay7 x0 x1 _ x
  · exact quarter_piece 512 inb_S2048x2048_S2048x512_0_512 inb_S128x2048_S128x512_0_512 k0_pay6 hpay6 x0 x1 _ x
  · exact quarter_piece 0 inb_S2048x2048_S2048x512_0_0 inb_S128x2048_S128x512_0_0 k0_pay5 hpay5 x0 x1 _ x

/-- A load through a box, of what ONE store of the whole block left, reads that store's payload through the box. -/
theorem readCov_whole {sig : RefSig} {κ : Kind} {sp : Space} (v : View sig κ sp S2048x2048 .f32)
    (inb : ∀ a, (![0, 0] : Fin 2 → Nat) a + (![2048, 2048] : Fin 2 → Nat) a ≤ S2048x2048.size a) (w : S2048x2048.Idx → Elt Ideal .f32) (r : Rect S2048x2048) :
    v.readCov [(⟨Rect.unit ![0, 0] ![2048, 2048] inb, w⟩ : View.Piece (Elt Ideal) S2048x2048 .f32)] r.toLoadRect = View.ld w r := by
  rw [View.readCov_eq_canon']
  funext j
  exact congrFun (View.canon_unit_zero (Val := Elt Ideal) (S := S2048x2048) (e := .f32) hz2 inb w) _

/-- A load through the column quarter at offset o' does not see a later store into the quarter at another offset o. -/
theorem readCov_skip {sig : RefSig} {κ : Kind} {sp : Space} (v : View sig κ sp S2048x2048 .f32) (o o' : Nat)
    (inb : ∀ a, (![0, o] : Fin 2 → Nat) a + (![2048, 512] : Fin 2 → Nat) a ≤ S2048x2048.size a)
    (inb' : ∀ a, (![0, o'] : Fin 2 → Nat) a + (![2048, 512] : Fin 2 → Nat) a ≤ S2048x2048.size a)
    (w : S2048x512.Idx → Elt Ideal .f32) (L : List (View.Piece (Elt Ideal) S2048x2048 .f32)) (h : o + 512 ≤ o' ∨ o' + 512 ≤ o) :
    v.readCov ((⟨Rect.unit ![0, o] ![2048, 512] inb, w⟩ : View.Piece (Elt Ideal) S2048x2048 .f32) :: L) (Rect.unit (s := S2048x2048) ![0, o'] ![2048, 512] inb').toLoadRect
      = v.readCov L (Rect.unit (s := S2048x2048) ![0, o'] ![2048, 512] inb').toLoadRect :=
  View.readCov_cons_of_disjoint v _ L _ (Rect.unit_disjoint (inb := inb) (inb' := inb') (1 : Fin 2) h)

/-- The first point of a run: the block is zeroed first, so every entry ends at zero plus the point's addend. -/
theorem out_A (c : Dev nD) (i : grid0.Coords) (arg3 : Memref sig .tc .vmem S2048x128 .f32) (harg3 : arg3.IsWhole) (arg4 : Memref sig .tc .vmem S128x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S2048x2048 .f32) (harg7 : arg7.IsWhole) (hc0 : cond0_0 i) (hc1 : ¬cond0_1 i) (x0 : Vec Ideal S2048x128 .f32) (x1 : Vec Ideal S128x2048 .bf16) (x2 : Vec Ideal S1x2048 .f32) (x3 : Vec Ideal S1x2048 .f32) :
    out0_A_4 (F := Ideal) c i arg3 harg3 arg4 harg4 arg5 harg5 arg6 harg6 arg7 harg7 hc0 hc1 x0 x1 x2 x3 = fun y => 0 + addend x0 x1 y := by
  refine (?_ : _ = fun y => k0_pay3 (F := Ideal) y + addend x0 x1 y).trans (funext fun y => by rw [pay3_apply])
  unfold out0_A_4
  rw [View.read_writes_eq_canon _ _ _ (cover0_A_4 c i arg3 harg3 arg4 harg4 arg5 harg5 arg6 harg6 arg7 harg7 hc0 hc1 x0 x1 x2 x3)]
  unfold kernelRun0_A
  dsimp only
  sl_unfold_words
  simp (disch := omega) only [readCov_whole, readCov_skip, View.readAt_eq_ld, harg3.read_unread, harg4.read_unread, View.ld_unit_zero (S := S2048x128) hz2]
  funext y
  refine View.canon_append_of_pieces (Val := Elt Ideal) (S := S2048x2048) (e := .f32) (fun y => k0_pay3 (F := Ideal) y + addend x0 x1 y) [_] [_, _, _, _] ?_ y (View.cover_of_tiledL (s := S2048x2048) [_, _, _, _] S2048x512.size (by sl_kernel_rfl) y)
  intro p hp x
  simp only [List.mem_cons, List.mem_nil_iff, or_false] at hp
  rcases hp with rfl | rfl | rfl | rfl
  · exact quarter_piece 1536 inb_S2048x2048_S2048x512_0_1536 inb_S128x2048_S128x512_0_1536 (fun v3 v6 v8 => k0_pay1 (k0_pay4 v3) v6 v8) hpay1 x0 x1 _ x
  · exact quarter_piece 1024 inb_S2048x2048_S2048x512_0_1024 inb_S128x2048_S128x512_0_1024 k0_pay7 hpay7 x0 x1 _ x
  · exact quarter_piece 512 inb_S2048x2048_S2048x512_0_512 inb_S128x2048_S128x512_0_512 k0_pay6 hpay6 x0 x1 _ x
  · exact quarter_piece 0 inb_S2048x2048_S2048x512_0_0 inb_S128x2048_S128x512_0_0 k0_pay5 hpay5 x0 x1 _ x

end Cert.BinaryLinear.Cases

end
-- ==== Proof.Fold.lean ====
/-
  What the resident output block holds after each grid point, in closed form. The grid runs its 512 points with the
  reduction axis fastest: point n belongs to the run of 32 points starting at 32 * (n / 32), and is the point
  k = n % 32 of that run. Each point adds its addend M n to the block; the first point of a run starts from zero,
  and the last one (k = 31) then multiplies the block by its scale row and adds its bias row. So at the last point of
  a run starting at b the block holds, entry by entry,
      (0 + Σ s < 32, M (b + s)) · scale + bias.
-/
import proofs.«168959_j35691178230429_2_alg».proof.Proof.Cases

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.BinaryLinear.Fold

open Cert.KernelIdeal Cert.KernelIdeal.Gen Cert.BinaryLinear.Cases

variable (m : (ℓ : Loc nD τ sig) → Buf (Elt Ideal) ℓ) (c : Dev nD)

/-- Point n's addend to the resident block, as a function of every natural (zero past the grid, where it is never read). -/
def M (n : ℕ) (y : S2048x2048.Idx) : EReal :=
  if h : n < cfg0.N then addend (iblk m c 0 ⟨n, h⟩) (iblk m c 1 ⟨n, h⟩) y else 0

/-- What the first point of a run leaves. -/
def start (n : ℕ) (h : n < cfg0.N) : S2048x2048.Idx → EReal := fun y => 0 + M m c n y

/-- What a later point makes of what the point before left: the addend, and at the last point of a run the scale row and the bias row. -/
def step (n : ℕ) (h : n < cfg0.N) (acc : S2048x2048.Idx → EReal) : S2048x2048.Idx → EReal :=
  if n % 32 = 31 then
    fun y => (acc y + M m c n y) * iblk m c 2 ⟨n, h⟩ (ix2 0 (y 1)) + iblk m c 3 ⟨n, h⟩ (ix2 0 (y 1))
  else fun y => acc y + M m c n y

theorem M_of_lt (n : ℕ) (h : n < cfg0.N) (y : S2048x2048.Idx) :
    M m c n y = addend (iblk m c 0 ⟨n, h⟩) (iblk m c 1 ⟨n, h⟩) y := dif_pos h

/-- The first point of a run resets. -/
theorem outsAt_start (n : ℕ) (h : n < cfg0.N) (h0 : n % 32 = 0) : outsAt0 m c n h = start m c n h := by
  have h1 : ¬(⟨n, h⟩ : Fin cfg0.N).val % 32 = 31 := by dsimp only; omega
  refine (outsAt0_A m c ⟨n, h⟩ h0 h1).trans ?_
  refine (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩)
    ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)).trans ?_
  funext y
  show 0 + addend (iblk m c 0 ⟨n, h⟩) (iblk m c 1 ⟨n, h⟩) y = 0 + M m c n y
  rw [M_of_lt m c n h]

/-- Every other point steps from the point before. -/
theorem outsAt_step (n : ℕ) (h : n + 1 < cfg0.N) (h0 : ¬(n + 1) % 32 = 0) :
    outsAt0 m c (n + 1) h = step m c (n + 1) h (outsAt0 m c n (Nat.lt_of_succ_lt h)) := by
  by_cases h1 : (n + 1) % 32 = 31
  · refine (outsAt0_C m c ⟨n + 1, h⟩ h0 h1).trans ?_
    refine (out_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩)
      (outsAt0 m c n (Nat.lt_of_succ_lt h))).trans ?_
    unfold step
    rw [if_pos h1]
    funext y
    rw [M_of_lt m c (n + 1) h]
  · refine (outsAt0_B m c ⟨n + 1, h⟩ h0 h1).trans ?_
    refine (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
      (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
      (outsAt0 m c n (Nat.lt_of_succ_lt h))).trans ?_
    unfold step
    rw [if_neg h1]
    funext y
    rw [M_of_lt m c (n + 1) h]

/-- The block after the LAST point of a run (t % 32 = 31, the run starting at b = t - 31): zero plus the run's 32 addends,
    scaled and biased by the point's rows. -/
theorem outsAt_last (t : ℕ) (ht : t < cfg0.N) (h31 : t % 32 = 31) (y : S2048x2048.Idx) :
    outsAt0 m c t ht y
      = (0 + ∑ s ∈ Finset.range 32, M m c (32 * (t / 32) + s) y) * iblk m c 2 ⟨t, ht⟩ (ix2 0 (y 1)) + iblk m c 3 ⟨t, ht⟩ (ix2 0 (y 1)) := by
  have hN : cfg0.N = 512 := N_0
  have hb : 32 * (t / 32) + 31 = t := by omega
  have h' : 32 * (t / 32) + t % 32 < cfg0.N := by omega
  rw [Pipeline.eq_accAt_of_mod (outsAt0 m c) 32 (start m c) (step m c) (outsAt_start m c) (outsAt_step m c) (by decide) t ht h']
  have e31 : ∀ (hh : 32 * (t / 32) + (30 + 1) < cfg0.N),
      Pipeline.accAt (start m c) (step m c) (32 * (t / 32)) (t % 32) h' = Pipeline.accAt (start m c) (step m c) (32 * (t / 32)) (30 + 1) hh := by
    intro hh; congr 1
  rw [e31 (by omega), Pipeline.accAt_succ]
  have hacc := Pipeline.accAt_add_apply (start m c) (step m c) (fun _ => (0 : EReal)) (M m c) (32 * (t / 32)) 30
    (fun _ _ => rfl)
    (fun n hn acc i hlt hle => by
      unfold step
      rw [if_neg (by omega : ¬n % 32 = 31)])
    30 le_rfl (by omega)
  unfold step
  rw [if_pos (by omega : (32 * (t / 32) + (30 + 1)) % 32 = 31)]
  show (Pipeline.accAt (start m c) (step m c) (32 * (t / 32)) 30 _ y + M m c (32 * (t / 32) + (30 + 1)) y) * _ + _ = _
  rw [hacc y, Finset.sum_range_succ _ 31, add_assoc]
  have e : (⟨32 * (t / 32) + (30 + 1), by omega⟩ : Fin cfg0.N) = ⟨t, ht⟩ := Fin.ext (by show 32 * (t / 32) + (30 + 1) = t; omega)
  rw [e]

end Cert.BinaryLinear.Fold

end
-- ==== Proof.Final.lean ====
/-
  From blocks to the array. The output window's block at grid point t is block (t / 64, t / 32 % 2) of the
  [16384, 4096] result, written back only at the last point of each run (t % 32 = 31). At the points of the run the
  activation window's blocks are (t / 64, s) and the weight window's (s, t / 32 % 2), s = 0 … 31: the 32 addends of a
  run are the 32 consecutive blocks of 128 terms of the contraction over 4096. So the result array ends, entry (M, n), at
      (0 + Σ s < 32, Σ kk < 128, X (M, 128 s + kk) · W (128 s + kk, n)) · scale (0, n) + bias (0, n)
  of the four arrays the region stages.
-/
import proofs.«168959_j35691178230429_2_alg».proof.Proof.Fold

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.BinaryLinear.Final

open Cert.KernelIdeal Cert.KernelIdeal.Gen Cert.BinaryLinear.Cases Cert.BinaryLinear.Fold

variable (m : (ℓ : Loc nD τ sig) → Buf (Elt Ideal) ℓ) (c : Dev nD)

/-- The five index maps in closed form, decided once over the grid's 512 points. -/
theorem idx_facts : ∀ t : Fin cfg0.N,
    win0_0.index t (0 : Fin 2) = t.val / 64 ∧ win0_0.index t (1 : Fin 2) = t.val % 32
    ∧ win0_1.index t (0 : Fin 2) = t.val % 32 ∧ win0_1.index t (1 : Fin 2) = t.val / 32 % 2
    ∧ win0_2.index t (0 : Fin 2) = 0 ∧ win0_2.index t (1 : Fin 2) = t.val / 32 % 2
    ∧ win0_3.index t (0 : Fin 2) = 0 ∧ win0_3.index t (1 : Fin 2) = t.val / 32 % 2
    ∧ win0_4.index t (0 : Fin 2) = t.val / 64 ∧ win0_4.index t (1 : Fin 2) = t.val / 32 % 2 :=
  (by decide +kernel : ∀ t : Fin grid0.N, _)

/-- Block s of the contraction (its 128 terms) at the array entry (M, n); zero for s past the 32 blocks. -/
def blockDot (X2 : S16384x4096.Idx → EReal) (WT : S4096x4096.Idx → EReal) (s : ℕ) (Mr : Fin 16384) (n : Fin 4096) : EReal :=
  if hs : s < 32 then
    ∑ kk : Fin 128, X2 (ix2 Mr (⟨s * 128 + kk.val, by have := kk.isLt; omega⟩ : Fin 4096)) * WT (ix2 (⟨s * 128 + kk.val, by have := kk.isLt; omega⟩ : Fin 4096) n)
  else 0

/-- The kernel's result array as a function of the four arrays the region stages. -/
def G2d (X2 : S16384x4096.Idx → EReal) (WT : S4096x4096.Idx → EReal) (SC BI : S1x4096.Idx → EReal) : S16384x4096.Idx → EReal :=
  fun i => (0 + ∑ s ∈ Finset.range 32, blockDot X2 WT s (i 0) (i 1)) * SC (ix2 0 (i 1)) + BI (ix2 0 (i 1))

/-- What a flushing point writes back is its block of G2d. -/
theorem flushed_eq (t : Fin cfg0.N) (hf : (cfg0.win 4).flush t = true) :
    (dats m 0 c).flushed 4 t = ((cfg0.win 4).blk t).view.read (Elt Ideal) (G2d (V m c main_v0) (V m c main_v7) (V m c main_v8) (V m c main_v9)) := by
  have h31 : t.val % 32 = 31 := (flush0_4 t).mp hf
  have hN : cfg0.N = 512 := N_0
  have htN : t.val < 512 := lt_of_lt_of_eq t.isLt hN
  show (cfg0.win 4).cut (grid0.coords t) ((dats m 0 c).after 4 t) = _
  rw [after0_4]
  funext y
  show outsAt0 m c t.val t.isLt y = G2d (V m c main_v0) (V m c main_v7) (V m c main_v8) (V m c main_v9) (((cfg0.win 4).blk t).view.emb y)
  rw [outsAt_last m c t.val t.isLt h31 y]
  obtain ⟨-, -, -, -, f20, f21, f30, f31, f40, f41⟩ := idx_facts t
  unfold G2d
  refine congrArg₂ (· + ·) (congrArg₂ (· * ·) (congrArg (0 + ·) (Finset.sum_congr rfl fun s hs => ?_)) ?_) ?_
  · have hs' : s < 32 := Finset.mem_range.mp hs
    have hlt : 32 * (t.val / 32) + s < cfg0.N := by omega
    obtain ⟨g00, g01, g10, g11, -, -, -, -, -, -⟩ := idx_facts ⟨32 * (t.val / 32) + s, hlt⟩
    dsimp only at g00 g01 g10 g11
    rw [M_of_lt m c _ hlt]
    unfold addend blockDot
    rw [dif_pos hs']
    refine Finset.sum_congr rfl fun kk _ => congrArg₂ (· * ·) ?_ ?_
    · show V m c main_v0 (((cfg0.win 0).blk ⟨32 * (t.val / 32) + s, hlt⟩).view.emb (ix2 (y 0) kk)) = V m c main_v0 _
      refine congrArg (V m c main_v0) ?_
      funext a; apply Fin.ext
      have hk : kk.val < 128 := kk.isLt
      match a with
      | ⟨0, _⟩ => show win0_0.index ⟨32 * (t.val / 32) + s, hlt⟩ (0 : Fin 2) * 2048 + 1 * (y 0).val = win0_4.index t (0 : Fin 2) * 2048 + 1 * (y 0).val; omega
      | ⟨1, _⟩ => show win0_0.index ⟨32 * (t.val / 32) + s, hlt⟩ (1 : Fin 2) * 128 + 1 * kk.val = s * 128 + kk.val; omega
    · show V m c main_v7 (((cfg0.win 1).blk ⟨32 * (t.val / 32) + s, hlt⟩).view.emb (ix2 kk (y 1))) = V m c main_v7 _
      refine congrArg (V m c main_v7) ?_
      funext a; apply Fin.ext
      have hk : kk.val < 128 := kk.isLt
      match a with
      | ⟨0, _⟩ => show win0_1.index ⟨32 * (t.val / 32) + s, hlt⟩ (0 : Fin 2) * 128 + 1 * kk.val = s * 128 + kk.val; omega
      | ⟨1, _⟩ => show win0_1.index ⟨32 * (t.val / 32) + s, hlt⟩ (1 : Fin 2) * 2048 + 1 * (y 1).val = win0_4.index t (1 : Fin 2) * 2048 + 1 * (y 1).val; omega
  · show V m c main_v8 (((cfg0.win 2).blk ⟨t.val, t.isLt⟩).view.emb (ix2 0 (y 1))) = V m c main_v8 _
    refine congrArg (V m c main_v8) ?_
    funext a; apply Fin.ext
    match a with
    | ⟨0, _⟩ => show win0_2.index t (0 : Fin 2) * 1 + 1 * 0 = 0; omega
    | ⟨1, _⟩ => show win0_2.index t (1 : Fin 2) * 2048 + 1 * (y 1).val = win0_4.index t (1 : Fin 2) * 2048 + 1 * (y 1).val; omega
  · show V m c main_v9 (((cfg0.win 3).blk ⟨t.val, t.isLt⟩).view.emb (ix2 0 (y 1))) = V m c main_v9 _
    refine congrArg (V m c main_v9) ?_
    funext a; apply Fin.ext
    match a with
    | ⟨0, _⟩ => show win0_3.index t (0 : Fin 2) * 1 + 1 * 0 = 0; omega
    | ⟨1, _⟩ => show win0_3.index t (1 : Fin 2) * 2048 + 1 * (y 1).val = win0_4.index t (1 : Fin 2) * 2048 + 1 * (y 1).val; omega

/-- An index of the result array is in point t's block iff each coordinate is in the block's range. -/
theorem mem_blk (t : Fin cfg0.N) (i : S16384x4096.Idx) :
    i ∈ ((cfg0.win 4).blk t).view.set ↔ ∀ a : Fin 2, win0_4.index t a * S2048x2048.size a ≤ (i a).val ∧ (i a).val < win0_4.index t a * S2048x2048.size a + S2048x2048.size a := by
  show i ∈ ((View.whole main_v10).slice (win0_4.rect t)).set ↔ _
  rw [View.set_slice_whole, Rect.mem_set_unit]
  exact Iff.rfl

/-- Every entry of the result array lies in the block of the last point of some run. -/
theorem cover (i : S16384x4096.Idx) : ∃ t : Fin cfg0.N, (cfg0.win 4).flush t = true ∧ i ∈ ((cfg0.win 4).blk t).view.set := by
  have hN : cfg0.N = 512 := N_0
  have hi0 : (i 0).val < 16384 := (i 0).isLt
  have hi1 : (i 1).val < 4096 := (i 1).isLt
  refine ⟨⟨(i 0).val / 2048 * 64 + (i 1).val / 2048 * 32 + 31, by omega⟩, (flush0_4 _).mpr (by dsimp only; omega), ?_⟩
  obtain ⟨-, -, -, -, -, -, -, -, f40, f41⟩ := idx_facts ⟨(i 0).val / 2048 * 64 + (i 1).val / 2048 * 32 + 31, by omega⟩
  dsimp only at f40 f41
  rw [mem_blk]
  intro a
  match a with
  | ⟨0, _⟩ =>
    show win0_4.index ⟨(i 0).val / 2048 * 64 + (i 1).val / 2048 * 32 + 31, _⟩ (0 : Fin 2) * 2048 ≤ (i 0).val ∧ (i 0).val < win0_4.index ⟨(i 0).val / 2048 * 64 + (i 1).val / 2048 * 32 + 31, _⟩ (0 : Fin 2) * 2048 + 2048
    omega
  | ⟨1, _⟩ =>
    show win0_4.index ⟨(i 0).val / 2048 * 64 + (i 1).val / 2048 * 32 + 31, _⟩ (1 : Fin 2) * 2048 ≤ (i 1).val ∧ (i 1).val < win0_4.index ⟨(i 0).val / 2048 * 64 + (i 1).val / 2048 * 32 + 31, _⟩ (1 : Fin 2) * 2048 + 2048
    omega

/-- The result array after the region. -/
theorem final : (dats m 0 c).arrAt 4 cfg0.N = G2d (V m c main_v0) (V m c main_v7) (V m c main_v8) (V m c main_v9) :=
  (dats m 0 c).arrAt_eq_of_cover 4 (G2d (V m c main_v0) (V m c main_v7) (V m c main_v8) (V m c main_v9)) (fun t hf => flushed_eq m c t hf) (cover)

end Cert.BinaryLinear.Final

end
-- ==== Proof.HostRead.lean ====
/-
  The arrays the kernel region stages and the host tail, read entry by entry.

  Before the region the host reshapes the activations [8, 2048, 4096] to [16384, 4096] (row M is (M / 2048, M % 2048)),
  takes the sign and the absolute value of the weights, sums each row's absolute values from the zero word, divides
  the row sums by the word of 4096 broadcast along the rows, transposes the signs (entry (k, n) is the sign of weight
  (n, k)), changes their format (the identity on the extended reals), and reshapes the row scales and the bias
  [4096] to [1, 4096]. After the region it reshapes the result [16384, 4096] back to [8, 2048, 4096]
  (entry (p, r) is row p * 2048 + r).
-/
import proofs.«168959_j35691178230429_2_alg».proof.Proof.Gen.KernelIdeal.Frame.Runs
import proofs.«168959_j35691178230429_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

set_option maxRecDepth 16384

noncomputable section

open scoped BigOperators

namespace Cert.BinaryLinear.HostRead

open Idealize.ShloMosaic Idealize.ShloMosaic.TcCoe Idealize.ShloMosaic.ValueIdx Idealize.SL.Sem Cert.KernelIdeal Cert.KernelIdeal.Gen

variable [Cert.KernelIdeal.Facts] (m : (ℓ : Loc nD τ sig) → Buf (Elt Ideal) ℓ) (c : Dev nD)

/-! ## The host's operations read at one entry -/

/-- A row sum of a [4096, 4096] array from an initial scalar, at row n: the initial value plus the sum over the
    row's 4096 entries. -/
theorem rowsum_apply (y : FVec Ideal S4096x4096 .f32) (init : FVec Ideal S_ .f32)
    (n : Fin 4096) :
    (Host.reduceAdd (F := Ideal) y init reducesTo_S4096x4096_S4096_d1 h_S_ : S4096.Idx → EReal) (ix1 n)
      = init (Shape.Idx.first h_S_) + ∑ k : Fin 4096, y (ix2 n k) := by
  simp only [Host.reduceAdd, Ideal.hostReduceAdd_def]
  rw [Ideal.hostReduceAdd_single reducesTo_S4096x4096_S4096_d1 (by decide)]
  refine congrArg (_ + ·) (Finset.sum_congr rfl fun k _ => ?_)
  exact congrArg y (funext fun a => Fin.ext (by match a with | ⟨0, _⟩ => rfl | ⟨1, _⟩ => rfl))

/-- The row scales as the host computes them, reshaped to [1, 4096], at (0, n): the mean of the absolute values of
    row n of the weights. -/
theorem scale_read (w : FVec Ideal S4096x4096 .f32) (n : Fin 4096) :
    (shapeCast S1x4096 (Host.divf (Host.reduceAdd (Host.absf w) (constant (F := Ideal) S_ .f32 0x00000000#32)
        reducesTo_S4096x4096_S4096_d1 h_S_) (broadcastInDim S4096 ![] bcast_S_S4096 (constant (F := Ideal) S_ .f32 0x45800000#32)))
        shapeCasts_S4096_S1x4096 : S1x4096.Idx → EReal) (ix2 0 n) = Cert.BinaryLinear.scale w n := by
  rw [shapeCast_a_1a_apply]
  show Ideal.div ((Host.reduceAdd (Host.absf w) (constant (F := Ideal) S_ .f32 0x00000000#32)
        reducesTo_S4096x4096_S4096_d1 h_S_ : S4096.Idx → EReal) (ix1 n))
      ((broadcastInDim S4096 ![] bcast_S_S4096 (constant (F := Ideal) S_ .f32 0x45800000#32) : S4096.Idx → EReal) (ix1 n)) = _
  rw [rowsum_apply, broadcastInDim_apply _ bcast_S_S4096 _ (ix1 n) ix0 (fun a => a.elim0)]
  unfold Cert.BinaryLinear.scale
  rfl

/-- The signs of the weights, transposed and changed of format, at (k, n): the sign of weight (n, k). -/
theorem sgn_read (w : FVec Ideal S4096x4096 .f32) (k n : Fin 4096) :
    (truncf (F := Ideal) .bf16 (transpose S4096x4096 [1, 0] (Host.sign w) transposes_S4096x4096_S4096x4096_1_0) bitsLt_bf16_f32
        : S4096x4096.Idx → EReal) (ix2 k n) = Cert.BinaryLinear.sgn w n k := by
  rw [truncf_apply]
  exact transpose_ix2_apply (Host.sign w) transposes_S4096x4096_S4096x4096_1_0 k n

/-- The activations reshaped to [16384, 4096], at (M, k): the activations at (M / 2048, M % 2048, k). -/
theorem x_read (x : FVec Ideal S8x2048x4096 .f32) (M : Fin 16384) (k : Fin 4096) :
    (shapeCast S16384x4096 x shapeCasts_S8x2048x4096_S16384x4096 : S16384x4096.Idx → EReal) (ix2 M k)
      = x (ix3 (⟨M.val / 2048, by have := M.isLt; omega⟩ : Fin 8) (⟨M.val % 2048, Nat.mod_lt _ (by decide)⟩ : Fin 2048) k) := by
  refine shapeCast_apply x _ _ _ ?_
  rw [Shape.rowMajor_val_three, Shape.rowMajor_val_two]
  show (M.val / 2048 * 2048 + M.val % 2048) * 4096 + k.val = M.val * 4096 + k.val
  rw [Nat.div_add_mod']

/-- A [16384, 4096] array reshaped to [8, 2048, 4096], at (p, r, n): the array at (p * 2048 + r, n). -/
theorem out_read (y : FVec Ideal S16384x4096 .f32) (p : Fin 8) (r : Fin 2048) (n : Fin 4096) :
    (shapeCast S8x2048x4096 y shapeCasts_S16384x4096_S8x2048x4096 : S8x2048x4096.Idx → EReal) (ix3 p r n)
      = y (ix2 (⟨p.val * 2048 + r.val, by have := p.isLt; have := r.isLt; omega⟩ : Fin 16384) n) := by
  refine shapeCast_apply y _ _ _ ?_
  rw [Shape.rowMajor_val_three, Shape.rowMajor_val_two]
  rfl

/-! ## The staged arrays as the region finds them -/

/-- The region's first array is the activations, reshaped. -/
theorem V_v0_apply (M : Fin 16384) (k : Fin 4096) :
    (V m c main_v0 : S16384x4096.Idx → EReal) (ix2 M k)
      = (m ((c : Thread nD τ).loc main_arg0) : S8x2048x4096.Idx → EReal)
          (ix3 (⟨M.val / 2048, by have := M.isLt; omega⟩ : Fin 8) (⟨M.val % 2048, Nat.mod_lt _ (by decide)⟩ : Fin 2048) k) := by
  have e : (V m c main_v0 : S16384x4096.Idx → EReal)
      = shapeCast S16384x4096 (m ((c : Thread nD τ).loc main_arg0) : S8x2048x4096.Idx → EReal) shapeCasts_S8x2048x4096_S16384x4096 := by
    show StableHlo.after hostOps0 (fun b => m (c, b)) (Proc.devRef .tc main_v0) = _
    after_results
    rfl
  rw [e]
  exact x_read _ M k

/-- Its second is the transposed signs of the weights. -/
theorem V_v7_apply (k n : Fin 4096) :
    (V m c main_v7 : S4096x4096.Idx → EReal) (ix2 k n) = Cert.BinaryLinear.sgn (m ((c : Thread nD τ).loc main_arg1)) n k := by
  have e : (V m c main_v7 : S4096x4096.Idx → EReal)
      = truncf (F := Ideal) .bf16 (transpose S4096x4096 [1, 0] (Host.sign (m ((c : Thread nD τ).loc main_arg1) : FVec Ideal S4096x4096 .f32)) transposes_S4096x4096_S4096x4096_1_0) bitsLt_bf16_f32 := by
    show StableHlo.after hostOps0 (fun b => m (c, b)) (Proc.devRef .tc main_v7) = _
    after_results
  rw [e]
  exact sgn_read _ k n

/-- Its third is the row scales of the weights. -/
theorem V_v8_apply (n : Fin 4096) :
    (V m c main_v8 : S1x4096.Idx → EReal) (ix2 0 n) = Cert.BinaryLinear.scale (m ((c : Thread nD τ).loc main_arg1)) n := by
  have e : (V m c main_v8 : S1x4096.Idx → EReal)
      = shapeCast S1x4096 (Host.divf (Host.reduceAdd (Host.absf (m ((c : Thread nD τ).loc main_arg1) : FVec Ideal S4096x4096 .f32)) (constant (F := Ideal) S_ .f32 0x00000000#32)
          reducesTo_S4096x4096_S4096_d1 h_S_) (broadcastInDim S4096 ![] bcast_S_S4096 (constant (F := Ideal) S_ .f32 0x45800000#32)))
          shapeCasts_S4096_S1x4096 := by
    show StableHlo.after hostOps0 (fun b => m (c, b)) (Proc.devRef .tc main_v8) = _
    after_results
    rfl
  rw [e]
  exact scale_read _ n

/-- Its fourth is the bias, reshaped. -/
theorem V_v9_apply (n : Fin 4096) :
    (V m c main_v9 : S1x4096.Idx → EReal) (ix2 0 n) = (m ((c : Thread nD τ).loc main_arg2) : S4096.Idx → EReal) (ix1 n) := by
  have e : (V m c main_v9 : S1x4096.Idx → EReal)
      = shapeCast S1x4096 (m ((c : Thread nD τ).loc main_arg2) : S4096.Idx → EReal) shapeCasts_S4096_S1x4096 := by
    show StableHlo.after hostOps0 (fun b => m (c, b)) (Proc.devRef .tc main_v9) = _
    after_results
    rfl
  rw [e]
  exact shapeCast_a_1a_apply _ _ 0 n

/-! ## The host tail -/

/-- After the region the host reshapes the region's result back to [8, 2048, 4096]. -/
theorem tail_apply (W : Valuation τ sig (Elt Ideal)) (p : Fin 8) (r : Fin 2048) (n : Fin 4096) :
    (StableHlo.after (hostOps1 (F := Ideal)) W (Proc.devRef .tc main_v11) : S8x2048x4096.Idx → EReal) (ix3 p r n)
      = (W (Proc.devRef .tc main_v10) : S16384x4096.Idx → EReal)
          (ix2 (⟨p.val * 2048 + r.val, by have := p.isLt; have := r.isLt; omega⟩ : Fin 16384) n) := by
  have e : (StableHlo.after (hostOps1 (F := Ideal)) W (Proc.devRef .tc main_v11) : S8x2048x4096.Idx → EReal)
      = shapeCast S8x2048x4096 (W (Proc.devRef .tc main_v10) : S16384x4096.Idx → EReal) shapeCasts_S16384x4096_S8x2048x4096 := by
    after_results
    rfl
  rw [e]
  exact out_read _ p r n

end Cert.BinaryLinear.HostRead

end
-- ==== Proof.KernelRun.lean ====
/-
  The idealized kernel's run, read: the result f32[8, 2048, 4096] is the kernel's grouping of Spec.lean at the program's
  three arguments. The region's result array [16384, 4096] ends at G2d of the four staged arrays (Final.lean); those are,
  entry by entry, the activations re-laid as rows M = 2048 p + r, the transposed signs, the row scales and the bias
  (HostRead.lean); the 32 blocks of 128 terms are the one sum over 4096; and the last host operation re-lays row M of
  the result as (M / 2048, M % 2048).
-/
import proofs.«168959_j35691178230429_2_alg».proof.Proof.Final
import proofs.«168959_j35691178230429_2_alg».proof.Proof.HostRead
import proofs.«168959_j35691178230429_2_alg».proof.Proof.LibBatchStats
import Idealize.ShloMosaic.Lib.StableHlo.Run

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.BinaryLinear.KernelRun

open Cert.KernelIdeal Cert.KernelIdeal.Gen Cert.BinaryLinear.Final Cert.BinaryLinear.HostRead

variable (m : (ℓ : Loc nD τ sig) → Buf (Elt Ideal) ℓ) (ρ : Dev nD → PrngReg) (c : Dev nD)

/-- The program's three arguments on core c, as plain functions on the extended reals. -/
abbrev argA : S8x2048x4096.Idx → EReal := m ((c : Thread nD τ).loc main_arg0)
abbrev argW : S4096x4096.Idx → EReal := m ((c : Thread nD τ).loc main_arg1)
abbrev argB : S4096.Idx → EReal := m ((c : Thread nD τ).loc main_arg2)

/-- The 32 blocks of 128 terms are the one sum over the 4096 terms. -/
theorem blocks_eq_sum (f : Fin 4096 → EReal) :
    ∑ s ∈ Finset.range 32, (if hs : s < 32 then ∑ kk : Fin 128, f ⟨s * 128 + kk.val, by have := kk.isLt; omega⟩ else 0) = ∑ k : Fin 4096, f k := by
  have h := Cert.Lib.BatchStats.sum_rows_cols (M := EReal) 32 128 (fun j => if h : j < 4096 then f ⟨j, h⟩ else 0)
  have e1 : ∑ k : Fin 4096, f k = ∑ i : Fin (32 * 128), (fun j => if h : j < 4096 then f ⟨j, h⟩ else 0) i.val :=
    Finset.sum_congr rfl fun k _ => by
      show f k = (if h : k.val < 4096 then f ⟨k.val, h⟩ else 0)
      rw [dif_pos k.isLt]
  rw [e1, h, ← Fin.sum_univ_eq_sum_range (fun s => if hs : s < 32 then ∑ kk : Fin 128, f ⟨s * 128 + kk.val, by have := kk.isLt; omega⟩ else 0) 32]
  refine Finset.sum_congr rfl fun b _ => ?_
  rw [dif_pos b.isLt]
  refine Finset.sum_congr rfl fun kk _ => ?_
  have hlt : b.val * 128 + kk.val < 4096 := by have := b.isLt; have := kk.isLt; omega
  show f ⟨b.val * 128 + kk.val, _⟩ = (if h : b.val * 128 + kk.val < 4096 then f ⟨b.val * 128 + kk.val, h⟩ else 0)
  rw [dif_pos hlt]

/-- The region's result array at row M = 2048 p + r, column n, is the kernel's grouping at (p, r, n). -/
theorem G2d_apply (p : Fin 8) (r : Fin 2048) (n : Fin 4096) :
    G2d (V m c main_v0) (V m c main_v7) (V m c main_v8) (V m c main_v9) (ix2 (⟨p.val * 2048 + r.val, by have := p.isLt; have := r.isLt; omega⟩ : Fin 16384) n)
      = Cert.BinaryLinear.outK (m ((c : Thread nD τ).loc main_arg0)) (m ((c : Thread nD τ).loc main_arg1)) (m ((c : Thread nD τ).loc main_arg2)) p r n := by
  unfold G2d Cert.BinaryLinear.outK
  have hp : p.val < 8 := p.isLt
  have hr : r.val < 2048 := r.isLt
  refine congrArg₂ (· + ·) (congrArg₂ (· * ·) ?_ (V_v8_apply m c n)) (V_v9_apply m c n)
  rw [zero_add]
  unfold blockDot
  refine (Finset.sum_congr rfl fun s hs => ?_).trans
    (blocks_eq_sum fun k => argA m c (ix3 p r k) * Cert.BinaryLinear.sgn (argW m c) n k)
  have hs' : s < 32 := Finset.mem_range.mp hs
  rw [dif_pos hs', dif_pos hs']
  refine Finset.sum_congr rfl fun kk _ => ?_
  rw [V_v0_apply m c, V_v7_apply m c]
  refine congrArg₂ (· * ·) (congrArg _ ?_) rfl
  refine congrArg₂ (fun a b => ix3 a b _) (Fin.ext ?_) (Fin.ext ?_)
  · show (p.val * 2048 + r.val) / 2048 = p.val; omega
  · show (p.val * 2048 + r.val) % 2048 = r.val; omega

/-- The idealized kernel's run: the result at the kernel's grouping of the arguments, the arguments unchanged. -/
theorem run : θ_run defs (onTc (τ := τ) (main (F := Ideal))) ⟨m, fun _ => 0, ρ⟩ fun r => ∀ c : Dev nD,
      r.2.mem ((c.tc : Thread nD τ).loc main_v11)
        = Cert.BinaryLinear.arrK (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ⟨?_, ?_, ?_, ?_⟩) (run_main m ρ)
  · refine ((h c).2 main_v11 (Pipeline.mem_restRefs_of main_v11 (by decide) (by decide))).trans ?_
    unfold Pipeline.afterTail₀
    funext i
    obtain ⟨p, q, n, rfl⟩ : ∃ (p : Fin 8) (q : Fin 2048) (n : Fin 4096), i = ix3 p q n := ⟨i 0, i 1, i 2, eq_ix3 i⟩
    simp only [List.flatten_cons, List.flatten_nil, List.append_nil]
    refine (tail_apply _ p q n).trans ?_
    rw [Pipeline.withArrays_arr spec0 launch0.win.arr_inj c _ _ 4, final m c]
    exact G2d_apply m c p q n
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

end Cert.BinaryLinear.KernelRun

end
-- ==== Proof.lean ====
/-
  A binarized-weight dense layer: out = x · (scale ∘ sign w)ᵀ + bias over x : f32[8, 2048, 4096], w : f32[4096, 4096],
  bias : f32[4096], with scale n the mean of |w n ·|. The kernel multiplies x by the bare signs, block by block over the
  contraction, and applies the row scale once to the finished sum; the reference scales every sign first and then takes one
  matrix product. On the extended reals the two agree entry by entry once every entry of x and of w is a real number
  (the precondition): a real factor moves across a finite sum of reals.

  Spec.lean states the two groupings; Law.lean joins them under finiteness and Finite.lean reads finiteness off the
  precondition; RefSpec.lean reads the reference's run as its grouping; Payloads.lean, Cases.lean, Fold.lean, Final.lean,
  HostRead.lean and KernelRun.lean read the kernel's run as the other: what one grid point leaves in the resident block,
  the fold over a run of 32 points, the blocks as the result array, the host operations around the region.
  The frames of the two kernel programs are the generated ones; the reference's frame is its run with the result dropped;
  no operation was rewritten by the idealization, so nothing is owed for it.
-/
import proofs.«168959_j35691178230429_2_alg».proof.Defs
import proofs.«168959_j35691178230429_2_alg».proof.Proof.Gen.Kernel
import proofs.«168959_j35691178230429_2_alg».proof.Proof.Gen.Kernel.Skeleton
import proofs.«168959_j35691178230429_2_alg».proof.Proof.Gen.Kernel.Launch
import proofs.«168959_j35691178230429_2_alg».proof.Proof.Gen.Kernel.Points
import proofs.«168959_j35691178230429_2_alg».proof.Proof.Gen.Kernel.Frame
import proofs.«168959_j35691178230429_2_alg».proof.Proof.Gen.KernelIdeal
import proofs.«168959_j35691178230429_2_alg».proof.Proof.Gen.KernelIdeal.Skeleton
import proofs.«168959_j35691178230429_2_alg».proof.Proof.Gen.KernelIdeal.Launch
import proofs.«168959_j35691178230429_2_alg».proof.Proof.Gen.KernelIdeal.Points
import proofs.«168959_j35691178230429_2_alg».proof.Proof.Gen.KernelIdeal.Frame
import proofs.«168959_j35691178230429_2_alg».proof.Proof.Gen.ReferenceIdeal
import proofs.«168959_j35691178230429_2_alg».proof.Proof.Gen.ReferenceIdeal.Run
import proofs.«168959_j35691178230429_2_alg».proof.Proof.Gen.ReferenceIdeal.Read
import proofs.«168959_j35691178230429_2_alg».proof.Proof.Gen.Pre_finite_inputs
import proofs.«168959_j35691178230429_2_alg».proof.Proof.Spec
import proofs.«168959_j35691178230429_2_alg».proof.Proof.Law
import proofs.«168959_j35691178230429_2_alg».proof.Proof.Finite
import proofs.«168959_j35691178230429_2_alg».proof.Proof.RefSpec
import proofs.«168959_j35691178230429_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the kernel's grouping of the arguments: the kernel by its run read back, the reference
    by its run read as the reference's grouping, which is the kernel's once the precondition makes x and w real. -/
theorem algebraic : Cert.algebraic_KernelIdeal_ReferenceIdeal := by
  intro m ρ m' ρ' hpre hagree
  refine ⟨fun c => Cert.BinaryLinear.arrK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.BinaryLinear.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, Cert.BinaryLinear.RefSpec.ref_eq, (hagree c).1, (hagree c).2.1, (hagree c).2.2]
  obtain ⟨hx, hw, -⟩ := Cert.BinaryLinear.allReal_of_pre _ _ _ (hpre c)
  exact (Cert.BinaryLinear.arrK_eq_arrR _ _ _ hx hw).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
